-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x64x64 : Shape := ⟨3, ![1024, 64, 64]⟩
abbrev S4096 : Shape := ⟨1, ![4096]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x64x64 : S_.BroadcastsInDim S1024x64x64 (![] : Fin 0 → Fin S1024x64x64.rank)
  reducesTo_S1024x64x64_S_d0_1_2 : S1024x64x64.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S1024x64x64 .f32) (main_arg2 : FVec F S4096 .f32) (main_arg3 : IVec S1024 32) (main_arg4 : IVec S1024 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x64x64 .f32 := Host.absf main_arg1
  let main_cst_0 : FVec F S_ .f32 := constant S_ .f32 0x7F800000#32
  let main_v5 : FVec F S1024x64x64 .f32 := broadcastInDim S1024x64x64 ![] bcast_S_S1024x64x64 main_cst_0
  let main_v6 : IVec S1024x64x64 1 := cmpf .olt main_v4 main_v5
  let main_c_1 : IVec S_ 1 := constantI S_ 1 1#1
  let main_v7 : IVec S_ 1 := (fun x v => Host.reduce IntOp.andi x v reducesTo_S1024x64x64_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S1024x64x64 : Shape := ⟨3, ![1024, 64, 64]⟩
abbrev S4096 : Shape := ⟨1, ![4096]⟩
abbrev S1024 : Shape := ⟨1, ![1024]⟩
abbrev S_ : Shape := ⟨0, ![]⟩
abbrev S64x64x64x64 : Shape := ⟨4, ![64, 64, 64, 64]⟩
abbrev S1024x1 : Shape := ⟨2, ![1024, 1]⟩
abbrev S1024x2 : Shape := ⟨2, ![1024, 2]⟩
abbrev S4096x4096 : Shape := ⟨2, ![4096, 4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 30
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1024x64x64, .f32⟩
  | .hbm, ⟨2, _⟩ => ⟨S4096, .f32⟩
  | .hbm, ⟨3, _⟩ => ⟨S1024, .i32⟩
  | .hbm, ⟨4, _⟩ => ⟨S1024, .i32⟩
  | .hbm, ⟨5, _⟩ => ⟨S1024x64x64, .bf16⟩
  | .hbm, ⟨6, _⟩ => ⟨S_, .bf16⟩
  | .hbm, ⟨7, _⟩ => ⟨S64x64x64x64, .bf16⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1024x1, .i32⟩
  | .hbm, ⟨24, _⟩ => ⟨S1024x2, .i32⟩
  | .hbm, ⟨25, _⟩ => ⟨S64x64x64x64, .bf16⟩
  | .hbm, ⟨26, _⟩ => ⟨S64x64x64x64, .bf16⟩
  | .hbm, ⟨27, _⟩ => ⟨S4096x4096, .bf16⟩
  | .hbm, ⟨28, _⟩ => ⟨S1x4096, .f32⟩
  | .hbm, ⟨29, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S_S64x64x64x64 : S_.BroadcastsInDim S64x64x64x64 (![] : Fin 0 → Fin S64x64x64x64.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  transposes_S64x64x64x64_S64x64x64x64_0_2_1_3 : S64x64x64x64.Transposes [0, 2, 1, 3] S64x64x64x64
  shapeCasts_S64x64x64x64_S4096x4096 : S64x64x64x64.ShapeCasts S4096x4096
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  scatter_S64x64x64x64_S1024x2_S1024x64x64_12_01_01_1_wf : ScatterDims.WF S64x64x64x64 S1024x2 S1024x64x64 [1, 2] [0, 1] [0, 1] 1
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def scatter_S64x64x64x64_S1024x2_S1024x64x64_12_01_01_1 : ScatterDims S64x64x64x64 S1024x2 S1024x64x64 where
  updateWindowDims := [1, 2]
  insertedWindowDims := [0, 1]
  scatterDimsToOperandDims := [0, 1]
  indexVectorDim := 1
  wf := scatter_S64x64x64x64_S1024x2_S1024x64x64_12_01_01_1_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1024x64x64 : Shape := ⟨3, ![1024, 64, 64]⟩
abbrev S4096 : Shape := ⟨1, ![4096]⟩
abbrev S1024 : Shape := ⟨1, ![1024]⟩
abbrev S_ : Shape := ⟨0, ![]⟩
abbrev S64x64x64x64 : Shape := ⟨4, ![64, 64, 64, 64]⟩
abbrev S1024x1 : Shape := ⟨2, ![1024, 1]⟩
abbrev S1024x2 : Shape := ⟨2, ![1024, 2]⟩
abbrev S4096x4096 : Shape := ⟨2, ![4096, 4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x64x64, .f32⟩
  | .hbm, ⟨2, _⟩ => ⟨S4096, .f32⟩
  | .hbm, ⟨3, _⟩ => ⟨S1024, .i32⟩
  | .hbm, ⟨4, _⟩ => ⟨S1024, .i32⟩
  | .hbm, ⟨5, _⟩ => ⟨S_, .f32⟩
  | .hbm, ⟨6, _⟩ => ⟨S64x64x64x64, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x1, .i32⟩
  | .hbm, ⟨23, _⟩ => ⟨S1024x2, .i32⟩
  | .hbm, ⟨24, _⟩ => ⟨S64x64x64x64, .f32⟩
  | .hbm, ⟨25, _⟩ => ⟨S64x64x64x64, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S64x64x64x64 : S_.BroadcastsInDim S64x64x64x64 (![] : Fin 0 → Fin S64x64x64x64.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  transposes_S64x64x64x64_S64x64x64x64_0_2_1_3 : S64x64x64x64.Transposes [0, 2, 1, 3] S64x64x64x64
  shapeCasts_S64x64x64x64_S4096x4096 : S64x64x64x64.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S64x64x64x64_S1024x2_S1024x64x64_12_01_01_1_wf : ScatterDims.WF S64x64x64x64 S1024x2 S1024x64x64 [1, 2] [0, 1] [0, 1] 1
  dot_S8192x4096_S4096x4096_S8192x4096_1_0_0_1_n_n_wf : DotDims.WF S8192x4096 S4096x4096 S8192x4096 [1] [0] [0] [1] [] []

variable [Facts₀]

def scatter_S64x64x64x64_S1024x2_S1024x64x64_12_01_01_1 : ScatterDims S64x64x64x64 S1024x2 S1024x64x64 where
  updateWindowDims := [1, 2]
  insertedWindowDims := [0, 1]
  scatterDimsToOperandDims := [0, 1]
  indexVectorDim := 1
  wf := scatter_S64x64x64x64_S1024x2_S1024x64x64_12_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Affine.lean ====
/-
  The function both programs compute. A block-sparse weight, once its blocks are laid into a dense matrix
  `W` whose ROWS are indexed by the output feature and whose columns by the input feature, acts on a batch
  `x` of input rows as the affine map

      y[i, j] = Σ_k x[i, k] · W[j, k] + b[j].

  The sum runs over the 4096 input features, in the extended reals. Nothing here mentions a program: the
  arrays are plain functions of their indices, and indices are built from coordinates.
-/
import Idealize.ShloMosaic.Lib.ValueIdx
import Idealize.ShloMosaic.PureOps.Ideal

noncomputable section

namespace Cert.BlockLinear

open Idealize.ShloMosaic Idealize.ShloMosaic.ValueIdx

/-- The batch of input rows, `[8192, 4096]`; also the shape of the result. -/
abbrev Rows : Shape := ⟨2, ![8192, 4096]⟩
/-- The dense weight matrix, `[4096, 4096]`, output feature first. -/
abbrev Weights : Shape := ⟨2, ![4096, 4096]⟩
/-- The bias, one entry per output feature. -/
abbrev Bias : Shape := ⟨1, ![4096]⟩

/-- `y[i, j] = Σ_k x[i, k] · W[j, k] + b[j]`: row `i` of the batch against row `j` of the weights, plus
    the bias of output feature `j`. -/
def affine (x : Rows.Idx → EReal) (W : Weights.Idx → EReal) (b : Bias.Idx → EReal) : Rows.Idx → EReal :=
  fun i => (∑ k : Fin 4096, x (ix2 (n0 := 8192) (n1 := 4096) (i 0) k) * W (ix2 (n0 := 4096) (n1 := 4096) (i 1) k))
    + b (ix1 (n := 4096) (i 1))

/-- The same at an index given by its two coordinates. -/
theorem affine_apply (x : Rows.Idx → EReal) (W : Weights.Idx → EReal) (b : Bias.Idx → EReal) (p : Fin 8192) (q : Fin 4096) :
    affine x W b (ix2 p q) = (∑ k : Fin 4096, x (ix2 p k) * W (ix2 q k)) + b (ix1 q) := rfl

end Cert.BlockLinear

end
-- ==== Proof.RefAffine.lean ====
/-
  The reference, read index by index, is the affine map of `Affine.lean`.

  The reference lays the blocks into the dense matrix `W[out, in]`, transposes it, and contracts the batch's
  columns against the transposed matrix's rows: entry `(i, j)` is `Σ_k x[i, k] · Wᵀ[k, j]`, and
  `Wᵀ[k, j] = W[j, k]`. The bias is broadcast first to one row and then down the batch, so entry `(i, j)` of
  the summand is `b[j]`. The dense matrix itself is left as the reference states it: how the blocks are
  scattered plays no part here.
-/
import proofs.«161738_j47304769798157_2_alg».proof.Proof.Gen.ReferenceIdeal.Read
import proofs.«161738_j47304769798157_2_alg».proof.Proof.Affine

noncomputable section

namespace Cert.BlockLinear.Ref

open Idealize.ShloMosaic Idealize.ShloMosaic.ValueIdx
open Cert.ReferenceIdeal Cert.ReferenceIdeal.Read

/-- The left factor of term `k` of entry `(p, q)` sits at `(p, k)` of the batch. -/
theorem left_index (p : Fin 8192) (q : Fin 4096) (k : Fin 4096) : lidx_main_v18 (ix2 p q) k = ix2 p k :=
  funext fun a => Fin.ext (by match a with | ⟨0, _⟩ => rfl | ⟨1, _⟩ => rfl)

/-- The right factor sits at `(k, q)` of the transposed matrix, that is at `(q, k)` of the dense one. -/
theorem right_index (p : Fin 8192) (q : Fin 4096) (k : Fin 4096) :
    idx_main_v17 (ridx_main_v18 (ix2 p q) k) = ix2 q k :=
  funext fun a => Fin.ext (by match a with | ⟨0, _⟩ => rfl | ⟨1, _⟩ => rfl)

/-- The bias, broadcast to a row and then down the batch, is read at the entry's column. -/
theorem bias_index (p : Fin 8192) (q : Fin 4096) : idx_main_v19 (idx_main_v20 (ix2 p q)) = ix1 q :=
  funext fun a => Fin.ext (by match a with | ⟨0, _⟩ => rfl)

/-- The reference's result is the affine map of the batch, the dense matrix the reference builds, and the bias. -/
theorem result_eq (x : (⟨S8192x4096, .f32⟩ : BufTy).Contents (Elt Ideal)) (w : (⟨S1024x64x64, .f32⟩ : BufTy).Contents (Elt Ideal))
    (b : (⟨S4096, .f32⟩ : BufTy).Contents (Elt Ideal)) (r c : (⟨S1024, .i32⟩ : BufTy).Contents (Elt Ideal)) :
    val_main_v21 (F := Ideal) x w b r c = affine x (val_main_v16 (F := Ideal) w r c) b := by
  funext i
  obtain ⟨p, q, rfl⟩ : ∃ (p : Fin 8192) (q : Fin 4096), i = ix2 p q := ⟨i 0, i 1, eq_ix2 i⟩
  rw [val_main_v21_apply, val_main_v18_apply, val_main_v20_apply, val_main_v19_apply, affine_apply]
  simp only [val_main_v17_apply, left_index, right_index, bias_index]
  rfl

end Cert.BlockLinear.Ref

end
-- ==== Proof.Payload.lean ====
/-
  What the kernel's body stores, read at one entry of its output block.

  At a grid point the body holds a block of 1024 batch rows `xb` (all 4096 columns), a block of 512 rows of
  the dense weight matrix `wb` (all 4096 columns), and the matching 512 bias entries `bb` as one row. It
  contracts the columns of `xb` against the COLUMNS of `wb` (both operands are contracted along their
  second axis, so no transpose is formed), starting from zero, and adds the bias row to every row of
  the product. Entry `(p, q)` of what it stores is therefore

      Σ_k xb[p, k] · wb[q, k] + bb[0, q].

  Rounding the batch block to the narrower float format is the identity over the extended reals, and the
  two shape casts are casts of a shape to itself.
-/
import proofs.«161738_j47304769798157_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.BlockLinear.Body

open Idealize.ShloMosaic Idealize.ShloMosaic.ValueIdx
open Cert.KernelIdeal Cert.KernelIdeal.Gen

/-- The body's contraction: rows of the left block against rows of the right block, along their columns. -/
abbrev rowsByRows : DotDims S1024x4096 S512x4096 S1024x512 := dot_S1024x4096_S512x4096_S1024x512_1_1_0_0_n_n

/-- The left operand's row is the entry's row. -/
theorem left_row (j : S1024x512.Idx) (κ : rowsByRows.contr.Idx) : (rowsByRows.lhsIdx j κ 0).val = (j 0).val := by
  unfold DotDims.lhsIdx
  rw [dif_neg (show ¬(0 : Fin S1024x4096.rank) ∈ rowsByRows.lhsBatch by decide),
    dif_pos (show (0 : Fin S1024x4096.rank) ∈ rowsByRows.lhsNonContracting by decide)]
  rfl

/-- The left operand's column is the summation position. -/
theorem left_col (j : S1024x512.Idx) (κ : rowsByRows.contr.Idx) :
    (rowsByRows.lhsIdx j κ 1).val = (κ ⟨0, by decide⟩).val :=
  rowsByRows.lhsIdx_val_of_single rfl j κ

/-- The right operand's row is the entry's column. -/
theorem right_row (j : S1024x512.Idx) (κ : rowsByRows.contr.Idx) : (rowsByRows.rhsIdx j κ 0).val = (j 1).val := by
  unfold DotDims.rhsIdx
  rw [dif_neg (show ¬(0 : Fin S512x4096.rank) ∈ rowsByRows.rhsBatch by decide),
    dif_pos (show (0 : Fin S512x4096.rank) ∈ rowsByRows.rhsNonContracting by decide)]
  rfl

/-- The right operand's column is the summation position. -/
theorem right_col (j : S1024x512.Idx) (κ : rowsByRows.contr.Idx) :
    (rowsByRows.rhsIdx j κ 1).val = (κ ⟨0, by decide⟩).val :=
  rowsByRows.rhsIdx_val_of_single rfl j κ

/-- The product accumulated from zero, at entry `(p, q)`: row `p` of the left block against row `q` of the
    right block. -/
theorem product_apply (l : FVec Ideal S1024x4096 .bf16) (r : FVec Ideal S512x4096 .bf16) (p : Fin 1024) (q : Fin 512) :
    matmul rowsByRows none l r (constant (F := Ideal) S1024x512 .f32 0x00000000#32) (ix2 p q)
      = ∑ k : Fin 4096, l (ix2 p k) * r (ix2 q k) := by
  refine (Ideal.matmul_constant_zero_apply rowsByRows none l r (ix2 p q)).trans ?_
  rw [← Equiv.sum_comp (contrEquiv1 rowsByRows 4096 rfl rfl).symm]
  refine Finset.sum_congr rfl fun k _ => ?_
  have hk := contrEquiv1_symm_val rowsByRows 4096 rfl rfl k
  have el : rowsByRows.lhsIdx (ix2 p q) ((contrEquiv1 rowsByRows 4096 rfl rfl).symm k) = ix2 p k :=
    funext fun a => Fin.ext (by
      match a with
      | ⟨0, _⟩ => exact left_row _ _
      | ⟨1, _⟩ => exact (left_col _ _).trans hk)
  have er : rowsByRows.rhsIdx (ix2 p q) ((contrEquiv1 rowsByRows 4096 rfl rfl).symm k) = ix2 q k :=
    funext fun a => Fin.ext (by
      match a with
      | ⟨0, _⟩ => exact right_row _ _
      | ⟨1, _⟩ => exact (right_col _ _).trans hk)
  rw [el, er]

/-- What the body stores at entry `(p, q)` of its output block. -/
theorem stored_apply (xb : FVec Ideal S1024x4096 .f32) (wb : FVec Ideal S512x4096 .bf16) (bb : FVec Ideal S1x512 .f32)
    (p : Fin 1024) (q : Fin 512) :
    k0_pay1 (F := Ideal) xb wb bb (ix2 p q) = (∑ k : Fin 4096, xb (ix2 p k) * wb (ix2 q k)) + bb (ix2 (0 : Fin 1) q) := by
  unfold k0_pay1
  rw [shapeCast_self, shapeCast_self]
  refine (addf_apply _ _ (ix2 p q)).trans ?_
  refine congrArg₂ (· + ·) ((product_apply _ wb p q).trans ?_) (broadcastTo_1b_ab_apply bb _ p q)
  rfl

end Cert.BlockLinear.Body

end
-- ==== Proof.Tiles.lean ====
/-
  One tile of the product, and the tiling of the result, over arbitrary arrays.

  The grid has 8 × 8 points. Point `(a, b)` is handed batch rows `1024·a … 1024·a + 1023` (all 4096 columns),
  rows `512·b … 512·b + 511` of the dense weight matrix (all 4096 columns) and entries `512·b … 512·b + 511` of
  the bias row, and writes the `1024 × 512` block of the result at block position `(a, b)`. By `Payload.lean`
  entry `(p, q)` of what it writes is `Σ_k xb[p, k] · wb[q, k] + bb[0, q]`; with each block read where it sits in
  its array this is `Σ_k X[1024·a + p, k] · W[512·b + q, k] + B[0, 512·b + q]`, the affine map of `Affine.lean` at
  entry `(1024·a + p, 512·b + q)`. The 64 blocks tile the result: entry `(r, s)` lies in the block of the point at
  `(r / 1024, s / 512)`.

  The arrays are variables here: nothing depends on how the batch, the matrix or the bias row came about.
-/
import proofs.«161738_j47304769798157_2_alg».proof.Proof.Gen.KernelIdeal.Points
import proofs.«161738_j47304769798157_2_alg».proof.Proof.Affine
import proofs.«161738_j47304769798157_2_alg».proof.Proof.Payload

noncomputable section

namespace Cert.BlockLinear.Tiles

open Idealize.ShloMosaic Idealize.ShloMosaic.TcCoe Idealize.ShloMosaic.ValueIdx Idealize.SL.Sem
open Cert.KernelIdeal Cert.KernelIdeal.Gen

/-- Every access of the body starts at the corner of its buffer. -/
theorem corner : (![0, 0] : Fin 2 → Nat) = fun _ => 0 := funext fun a => by fin_cases a <;> rfl

/-- Where each window's block sits at a grid point, relative to the output block `(a, b)`: the batch block at
    `(a, 0)`, the weight block at `(b, 0)`, the bias block at `(0, b)`; and `a, b ≤ 7`. Decided over the 64 points. -/
theorem block_positions : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every block position of the result is some point's. -/
theorem block_onto : ∀ (a : Fin 8) (b : Fin 8), ∃ t : Fin cfg0.N, win0_3.index t = ![a.val, b.val] :=
  (by decide +kernel : ∀ (a : Fin 8) (b : Fin 8), ∃ t : Fin grid0.N, win0_3.index t = ![a.val, b.val])

/-- Entry `(p, q)` of point `t`'s output block is entry `(1024·a + p, 512·b + q)` of the result. -/
theorem entry_position (t : Fin cfg0.N) (p : Fin 1024) (q : Fin 512) (P : Fin 8192) (Q : Fin 4096)
    (hP : P.val = win0_3.index t (0 : Fin 2) * 1024 + p.val) (hQ : Q.val = win0_3.index t (1 : Fin 2) * 512 + q.val) :
    ((cfg0.win 3).blk t).view.emb (ix2 p q) = ix2 P Q :=
  funext fun a => Fin.ext (by
    match a with
    | ⟨0, _⟩ => show win0_3.index t (0 : Fin 2) * 1024 + 1 * p.val = P.val; omega
    | ⟨1, _⟩ => show win0_3.index t (1 : Fin 2) * 512 + 1 * q.val = Q.val; omega)

/-- Row `p` of point `t`'s batch block is row `1024·a + p` of the batch, all columns. -/
theorem read_batch (X : S8192x4096.Idx → EReal) (t : Fin cfg0.N) (p : Fin 1024) (k : Fin 4096) (P : Fin 8192)
    (hP : P.val = win0_3.index t (0 : Fin 2) * 1024 + p.val) :
    ((cfg0.win 0).blk t).view.read (Elt Ideal) X (ix2 p k) = X (ix2 P k) := by
  obtain ⟨e00, e01, -⟩ := block_positions t
  show X (((cfg0.win 0).blk t).view.emb (ix2 p k)) = _
  refine congrArg X (funext fun a => Fin.ext ?_)
  match a with
  | ⟨0, _⟩ => show win0_0.index t (0 : Fin 2) * 1024 + 1 * p.val = P.val; rw [e00]; omega
  | ⟨1, _⟩ => show win0_0.index t (1 : Fin 2) * 4096 + 1 * k.val = k.val; rw [e01]; omega

/-- Row `q` of point `t`'s weight block is row `512·b + q` of the dense matrix, all columns. -/
theorem read_weight (Wd : S4096x4096.Idx → EReal) (t : Fin cfg0.N) (q : Fin 512) (k : Fin 4096) (Q : Fin 4096)
    (hQ : Q.val = win0_3.index t (1 : Fin 2) * 512 + q.val) :
    ((cfg0.win 1).blk t).view.read (Elt Ideal) Wd (ix2 q k) = Wd (ix2 Q k) := by
  obtain ⟨-, -, e10, e11, -⟩ := block_positions t
  show Wd (((cfg0.win 1).blk t).view.emb (ix2 q k)) = _
  refine congrArg Wd (funext fun a => Fin.ext ?_)
  match a with
  | ⟨0, _⟩ => show win0_1.index t (0 : Fin 2) * 512 + 1 * q.val = Q.val; rw [e10]; omega
  | ⟨1, _⟩ => show win0_1.index t (1 : Fin 2) * 4096 + 1 * k.val = k.val; rw [e11]; omega

/-- Entry `q` of point `t`'s bias block is entry `512·b + q` of the bias row. -/
theorem read_bias (Bv : S1x4096.Idx → EReal) (t : Fin cfg0.N) (q : Fin 512) (Q : Fin 4096)
    (hQ : Q.val = win0_3.index t (1 : Fin 2) * 512 + q.val) :
    ((cfg0.win 2).blk t).view.read (Elt Ideal) Bv (ix2 (0 : Fin 1) q) = Bv (ix2 (0 : Fin 1) Q) := by
  obtain ⟨-, -, -, -, e20, e21, -⟩ := block_positions t
  show Bv (((cfg0.win 2).blk t).view.emb (ix2 (0 : Fin 1) q)) = _
  refine congrArg Bv (funext fun a => Fin.ext ?_)
  match a with
  | ⟨0, _⟩ => show win0_2.index t (0 : Fin 2) * 1 + 1 * 0 = 0; rw [e20]
  | ⟨1, _⟩ => show win0_2.index t (1 : Fin 2) * 512 + 1 * q.val = Q.val; rw [e21]; omega

/-- ONE TILE: what the body stores from the three blocks at point `t` is block `t` of the affine map of the
    whole arrays (`b` the bias as a vector, `Bv` the same as one row). -/
theorem tile_eq (X : S8192x4096.Idx → EReal) (Wd : S4096x4096.Idx → EReal) (Bv : S1x4096.Idx → EReal)
    (b : Cert.BlockLinear.Bias.Idx → EReal) (hB : ∀ (u : Fin 1) (j : Fin 4096), Bv (ix2 u j) = b (ix1 j)) (t : Fin cfg0.N) :
    k0_pay1 (F := Ideal) (((cfg0.win 0).blk t).view.read (Elt Ideal) X) (((cfg0.win 1).blk t).view.read (Elt Ideal) Wd)
        (((cfg0.win 2).blk t).view.read (Elt Ideal) Bv)
      = ((cfg0.win 3).blk t).view.read (Elt Ideal) (Cert.BlockLinear.affine X Wd b) := by
  obtain ⟨-, -, -, -, -, -, b0, b1⟩ := block_positions t
  funext j
  obtain ⟨p, q, rfl⟩ : ∃ (p : Fin 1024) (q : Fin 512), j = ix2 p q := ⟨j 0, j 1, eq_ix2 j⟩
  have hp : p.val < 1024 := p.isLt
  have hq : q.val < 512 := q.isLt
  refine (Cert.BlockLinear.Body.stored_apply (((cfg0.win 0).blk t).view.read (Elt Ideal) X)
    (((cfg0.win 1).blk t).view.read (Elt Ideal) Wd) (((cfg0.win 2).blk t).view.read (Elt Ideal) Bv) p q).trans ?_
  show _ = Cert.BlockLinear.affine X Wd b (((cfg0.win 3).blk t).view.emb (ix2 p q))
  have hP' : win0_3.index t (0 : Fin 2) * 1024 + p.val < 8192 := by omega
  have hQ' : win0_3.index t (1 : Fin 2) * 512 + q.val < 4096 := by omega
  rw [entry_position t p q ⟨_, hP'⟩ ⟨_, hQ'⟩ rfl rfl, Cert.BlockLinear.affine_apply]
  refine congrArg₂ (· + ·) (Finset.sum_congr rfl fun k _ => ?_) ?_
  · rw [read_batch X t p k ⟨_, hP'⟩ rfl, read_weight Wd t q k ⟨_, hQ'⟩ rfl]
  · rw [read_bias Bv t q ⟨_, hQ'⟩ rfl]
    exact hB 0 _

/-- An entry of the result lies in point `t`'s block iff each coordinate lies in the block's range. -/
theorem mem_block (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v19).slice (win0_3.rect t)).set ↔ _
  rw [View.set_slice_whole, Rect.mem_set_unit]
  exact Iff.rfl

/-- The blocks tile the result: entry `(r, s)` lies in the block of the point at `(r / 1024, s / 512)`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

end Cert.BlockLinear.Tiles

end
-- ==== Proof.HostHead.lean ====
/-
  What the region finds in the two arrays the host prepares for it.

  Before the region runs, the host lays the 1024 nonzero 64×64 blocks of the weight into a zero-filled
  64×64 grid of blocks — block `n` goes to grid cell `(row n, col n)`, a negative coordinate counted from the
  end —, then swaps the two middle axes and flattens, which gives the dense matrix `W[out, in]`. The reference
  does exactly the same, on the blocks as given; the kernel's host side first rounds the blocks to a narrower
  float format and fills with that format's zero. Over the extended reals the rounding is the identity and
  both zeros are `0`, so the two dense matrices are ONE array. The chain of operations is carried as one
  function `dense` of the fill, the blocks and the coordinates and is never opened: which block lands
  where is the same question on both sides.

  The bias reaches the region as one row `[1, 4096]`: entry `(0, j)` is `b[j]`.
-/
import proofs.«161738_j47304769798157_2_alg».proof.Proof.Gen.KernelIdeal.Frame
import proofs.«161738_j47304769798157_2_alg».proof.Proof.Gen.ReferenceIdeal.Read
import Idealize.ShloMosaic.Lib.StableHlo.Run
import Idealize.ShloMosaic.Lib.ValueIdx
import Idealize.ShloMosaic.Lib.ValueLayout
import Idealize.ShloMosaic.PureOps.Ideal.Laws

noncomputable section

namespace Cert.BlockLinear.Head

open Idealize.ShloMosaic Idealize.ShloMosaic.TcCoe Idealize.ShloMosaic.ValueIdx Idealize.SL.Sem
open Idealize.ShloMosaic.StableHlo
open Cert.KernelIdeal Cert.KernelIdeal.Gen

/-- A block coordinate as the host reads it: a negative one is counted from the end of the 64 cells. -/
def cell (a : IVec S1024 32) : IVec S1024 32 :=
  select (cmpi .slt a (broadcastInDim S1024 ![] bcast_S_S1024 (constantI S_ 32 0#32)))
    (addi a (broadcastInDim S1024 ![] bcast_S_S1024 (constantI S_ 32 64#32))) a

/-- The dense matrix: the blocks `w` set into the grid `fill` at the cells `(r, c)`, the two middle axes
    swapped, the four axes flattened to two. Kept as one function. -/
def dense (fill : S64x64x64x64.Idx → EReal) (w : S1024x64x64.Idx → EReal) (r c : IVec S1024 32) : S4096x4096.Idx → EReal :=
  shapeCast S4096x4096
    (transpose S64x64x64x64 [0, 2, 1, 3]
      (Host.scatter scatter_S64x64x64x64_S1024x2_S1024x64x64_12_01_01_1 (fun _ b => b) fill
        (concatenate S1024x2 1 [⟨S1024x1, broadcastInDim S1024x1 ![0] bcast_S1024_S1024x1_0 (cell r)⟩,
          ⟨S1024x1, broadcastInDim S1024x1 ![0] bcast_S1024_S1024x1_0 (cell c)⟩] concatenates_S1024x1_S1024x1_S1024x2_d1)
        w)
      transposes_S64x64x64x64_S64x64x64x64_0_2_1_3)
    shapeCasts_S64x64x64x64_S4096x4096

/-- The grid of blocks filled with the narrow format's zero … -/
def fillNarrow : S64x64x64x64.Idx → EReal :=
  broadcastInDim S64x64x64x64 ![] bcast_S_S64x64x64x64 (constant (F := Ideal) S_ .bf16 0x0000#16)
/-- … and with the wide format's zero. -/
def fillWide : S64x64x64x64.Idx → EReal :=
  broadcastInDim S64x64x64x64 ![] bcast_S_S64x64x64x64 (constant (F := Ideal) S_ .f32 0x00000000#32)

/-- Both fills are the zero array. -/
theorem fill_eq : fillNarrow = fillWide := by
  unfold fillNarrow fillWide
  refine congrArg (fun z : S_.Idx → EReal => broadcastInDim S64x64x64x64 ![] bcast_S_S64x64x64x64 z) (funext fun i => ?_)
  show Ideal.ofBits .bf16 0x0000#16 = Ideal.ofBits .f32 0x00000000#32
  rw [Ideal.ofBits_zero_f32]
  simp [Ideal.ofBits, Ideal.ieee]

variable (m : (ℓ : Loc nD τ sig) → Buf (Elt Ideal) ℓ)

set_option maxHeartbeats 2000000 in
/-- The weight window's array, as the region finds it: the dense matrix of the rounded blocks over the
    narrow zero. -/
theorem weights_found (c : Dev nD) :
    (V m c main_v17 : S4096x4096.Idx → EReal)
      = dense fillNarrow (truncf (F := Ideal) (s := S1024x64x64) (φ := .f32) .bf16 (m ((c : Thread nD τ).loc main_arg1)) bitsLt_bf16_f32)
          (m ((c : Thread nD τ).loc main_arg3)) (m ((c : Thread nD τ).loc main_arg4)) := by
  dsimp only [Gen.V, Gen.hostOps0]
  after_results_simp
  rfl

/-- The reference's dense matrix is the same function of the blocks as given over the wide zero. -/
theorem reference_dense (w : S1024x64x64.Idx → EReal) (r c : IVec S1024 32) :
    Cert.ReferenceIdeal.Read.val_main_v16 (F := Ideal) w r c = dense fillWide w r c := rfl

/-- So the region finds, in the weight window's array, the reference's dense matrix of the same arguments. -/
theorem weights_eq (c : Dev nD) :
    (V m c main_v17 : S4096x4096.Idx → EReal)
      = Cert.ReferenceIdeal.Read.val_main_v16 (F := Ideal) (m ((c : Thread nD τ).loc main_arg1))
          (m ((c : Thread nD τ).loc main_arg3)) (m ((c : Thread nD τ).loc main_arg4)) := by
  rw [weights_found, reference_dense, fill_eq]
  rfl

set_option maxHeartbeats 2000000 in
/-- The bias window's array, as the region finds it, is the bias as one row. -/
theorem bias_found (c : Dev nD) :
    (V m c main_v18 : S1x4096.Idx → EReal)
      = shapeCast S1x4096 (m ((c : Thread nD τ).loc main_arg2)) shapeCasts_S4096_S1x4096 := by
  dsimp only [Gen.V, Gen.hostOps0]
  after_results_simp
  rfl

/-- Entry `(0, j)` of that row is the bias of output feature `j`. -/
theorem bias_apply (c : Dev nD) (u : Fin 1) (j : Fin 4096) :
    (V m c main_v18 : S1x4096.Idx → EReal) (ix2 u j) = m ((c : Thread nD τ).loc main_arg2) (ix1 j) := by
  rw [bias_found]
  exact shapeCast_a_1a_apply _ shapeCasts_S4096_S1x4096 u j

end Cert.BlockLinear.Head

end
-- ==== Proof.KernelValue.lean ====
/-
  The kernel's result array, as one function of the argument arrays.

  `Tiles.lean` shows, for any three arrays, that what the body stores at a grid point is that point's block of
  the affine map of the whole arrays, and that the blocks tile the result. Here the arrays are the ones the
  region finds: the batch as launched, the dense matrix the host laid out, and the bias as one row. Each input
  window's block at a point is its array read through the point's block, so every point writes back its block
  of the affine map, and the whole result array ends holding it. By `HostHead.lean` the dense matrix is the
  reference's, which states the result in terms of the arguments alone.
-/
import proofs.«161738_j47304769798157_2_alg».proof.Proof.Gen.KernelIdeal.Value
import proofs.«161738_j47304769798157_2_alg».proof.Proof.Affine
import proofs.«161738_j47304769798157_2_alg».proof.Proof.Tiles
import proofs.«161738_j47304769798157_2_alg».proof.Proof.HostHead

noncomputable section

namespace Cert.BlockLinear.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The result array: the affine map of the batch and the dense matrix as the region finds them, and the bias. -/
def result (c : Dev nD) : S8192x4096.Idx → EReal :=
  Cert.BlockLinear.affine (V m c main_arg0) (V m c main_v17) (m ((c : Thread nD τ).loc main_arg2))

/-- The batch window's block at a point is the batch read through the point's block. -/
theorem batch_iblk (c : Dev nD) (t : Fin cfg0.N) :
    iblk m c 0 t = ((cfg0.win 0).blk t).view.read (Elt Ideal) (V m c main_arg0) := rfl

/-- The weight window's block at a point is the dense matrix read through the point's block. -/
theorem weight_iblk (c : Dev nD) (t : Fin cfg0.N) :
    iblk m c 1 t = ((cfg0.win 1).blk t).view.read (Elt Ideal) (V m c main_v17) := rfl

/-- The bias window's block at a point is the bias row read through the point's block. -/
theorem bias_iblk (c : Dev nD) (t : Fin cfg0.N) :
    iblk m c 2 t = ((cfg0.win 2).blk t).view.read (Elt Ideal) (V m c main_v18) := rfl

/-- What point `t` writes back is block `t` of `result`. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero Cert.BlockLinear.Tiles.corner]
  simp only [View.ld_unit_zero (S := S1024x4096) Cert.BlockLinear.Tiles.corner,
    View.ld_unit_zero (S := S512x4096) Cert.BlockLinear.Tiles.corner,
    View.ld_unit_zero (S := S1x512) Cert.BlockLinear.Tiles.corner]
  show k0_pay1 (F := Ideal) (iblk m c 0 t) (iblk m c 1 t) (iblk m c 2 t) = _
  rw [batch_iblk, weight_iblk, bias_iblk]
  unfold result
  exact Cert.BlockLinear.Tiles.tile_eq (V m c main_arg0) (V m c main_v17) (V m c main_v18)
    (m ((c : Thread nD τ).loc main_arg2)) (Cert.BlockLinear.Head.bias_apply m c) t

/-- The array after the run is `result`: every point writes its block of it, and the blocks tile the array. -/
theorem final (c : Dev nD) : (dats m 0 c).arrAt 3 cfg0.N = result m c :=
  (dats m 0 c).arrAt_eq_of_cover 3 (result m c) (fun t _ => flushed_eq m c t) Cert.BlockLinear.Tiles.covered

/-- `result` in terms of the arguments alone: the batch is as launched, and the dense matrix the region finds
    is the reference's dense matrix of the blocks and their coordinates. -/
theorem result_eq (c : Dev nD) :
    result m c = Cert.BlockLinear.affine (m ((c : Thread nD τ).loc main_arg0))
      (Cert.ReferenceIdeal.Read.val_main_v16 (F := Ideal) (m ((c : Thread nD τ).loc main_arg1))
        (m ((c : Thread nD τ).loc main_arg3)) (m ((c : Thread nD τ).loc main_arg4)))
      (m ((c : Thread nD τ).loc main_arg2)) := by
  unfold result
  exact congrArg₂ (fun a b => Cert.BlockLinear.affine a b (m ((c : Thread nD τ).loc main_arg2)))
    (V_main_arg0 m c) (Cert.BlockLinear.Head.weights_eq m c)

/-- The kernel's run: the result array ends at the affine map of the arguments, the arguments unchanged. -/
theorem run : θ_run defs (onTc (τ := τ) (main (F := Ideal))) ⟨m, fun _ => 0, ρ⟩ fun r => ∀ c : Dev nD,
      r.2.mem ((c : Thread nD τ).loc main_v19) = Cert.BlockLinear.affine (m ((c : Thread nD τ).loc main_arg0))
        (Cert.ReferenceIdeal.Read.val_main_v16 (F := Ideal) (m ((c : Thread nD τ).loc main_arg1))
          (m ((c : Thread nD τ).loc main_arg3)) (m ((c : Thread nD τ).loc main_arg4)))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (result_eq m c)), (h c).2⟩)
    (Cert.KernelIdeal.Value.run_blocks m ρ)

end Cert.BlockLinear.Kernel

end
-- ==== Proof.lean ====
/-
  A linear layer whose weight is block-sparse — 1024 nonzero blocks of 64 × 64 in a 64 × 64 grid of blocks —
  computed, in both programs, by laying the blocks into the dense matrix `W[out, in]` and then taking
  `y = x · Wᵀ + b` over a batch of 8192 rows and 4096 features.

  The two programs differ in how they take the product. The reference transposes the dense matrix and
  contracts the batch's columns with the transposed matrix's rows in one product over the whole arrays. The
  kernel leaves the matrix as it is and, tile by tile of the result (8 × 8 tiles of 1024 rows by 512 features),
  contracts the columns of a block of batch rows with the columns of a block of matrix rows, then adds the
  bias. Entry `(i, j)` is `Σ_k x[i, k] · W[j, k] + b[j]` on both sides (`Affine.lean`): for the reference by
  `RefAffine.lean` (`Wᵀ[k, j] = W[j, k]`), for the kernel by `Payload.lean` (one tile) and `KernelValue.lean` (the
  tiles cover the result). The kernel's host side rounds the blocks to a narrower float format before it lays
  them out; over the extended reals that is the identity, and the dense matrix the region finds is the
  reference's (`HostHead.lean`), so how the blocks are scattered never has to be opened. The two sums run over
  the same index set in the same order, so no finiteness of the inputs is used.

  The kernel's printed idealization rewrites nothing, so that it preserves the kernel is trivial; the three
  programs terminate without fault and leave their arguments unchanged by their runs.
-/
import proofs.«161738_j47304769798157_2_alg».proof.Defs
import proofs.«161738_j47304769798157_2_alg».proof.Proof.Gen.Kernel
import proofs.«161738_j47304769798157_2_alg».proof.Proof.Gen.Kernel.Skeleton
import proofs.«161738_j47304769798157_2_alg».proof.Proof.Gen.Kernel.Launch
import proofs.«161738_j47304769798157_2_alg».proof.Proof.Gen.Kernel.Points
import proofs.«161738_j47304769798157_2_alg».proof.Proof.Gen.Kernel.Frame
import proofs.«161738_j47304769798157_2_alg».proof.Proof.Gen.KernelIdeal
import proofs.«161738_j47304769798157_2_alg».proof.Proof.Gen.KernelIdeal.Skeleton
import proofs.«161738_j47304769798157_2_alg».proof.Proof.Gen.KernelIdeal.Launch
import proofs.«161738_j47304769798157_2_alg».proof.Proof.Gen.KernelIdeal.Points
import proofs.«161738_j47304769798157_2_alg».proof.Proof.Gen.KernelIdeal.Frame
import proofs.«161738_j47304769798157_2_alg».proof.Proof.Gen.ReferenceIdeal
import proofs.«161738_j47304769798157_2_alg».proof.Proof.Gen.KernelIdeal.Value
import proofs.«161738_j47304769798157_2_alg».proof.Proof.Gen.ReferenceIdeal.Run
import proofs.«161738_j47304769798157_2_alg».proof.Proof.Gen.ReferenceIdeal.Read
import proofs.«161738_j47304769798157_2_alg».proof.Proof.Gen.Pre_finite_inputs
import proofs.«161738_j47304769798157_2_alg».proof.Proof.Affine
import proofs.«161738_j47304769798157_2_alg».proof.Proof.RefAffine
import proofs.«161738_j47304769798157_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the affine map
    `Σ_k x[i, k] · W[j, k] + b[j]` of the batch, the dense matrix of the blocks, and the bias. -/
theorem algebraic : Cert.algebraic_KernelIdeal_ReferenceIdeal := by
  intro m ρ m' ρ' _ hagree
  refine ⟨_, Cert.BlockLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.BlockLinear.Ref.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
